-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x4096 : Shape := ⟨3, ![32, 128, 4096]⟩
abbrev S_ : Shape := ⟨0, ![]⟩

class Facts : Prop where
  bcast_S_S32x128x4096 : S_.BroadcastsInDim S32x128x4096 (![] : Fin 0 → Fin S32x128x4096.rank)
  reducesTo_S32x128x4096_S_d0_1_2 : S32x128x4096.ReducesTo [0, 1, 2] S_
  h_S_ : 0 < S_.numel

variable [Facts]

def fn {F : FTy → Type} [FloatOps F] (main_arg0 : FVec F S32x128x4096 .f32) : IVec S_ 1 :=
  let main_v0 : FVec F S32x128x4096 .f32 := Host.absf main_arg0
  let main_cst : FVec F S_ .f32 := constant S_ .f32 0x7F800000#32
  let main_v1 : FVec F S32x128x4096 .f32 := broadcastInDim S32x128x4096 ![] bcast_S_S32x128x4096 main_cst
  let main_v2 : IVec S32x128x4096 1 := cmpf .olt main_v0 main_v1
  let main_c : IVec S_ 1 := constantI S_ 1 1#1
  let main_v3 : IVec S_ 1 := (fun x v => Host.reduce IntOp.andi x v reducesTo_S32x128x4096_S_d0_1_2 h_S_) main_v2 main_c
  main_v3
-- ==== Kernel.lean ====
abbrev S32x128x4096 : Shape := ⟨3, ![32, 128, 4096]⟩
abbrev S1x128x4096 : Shape := ⟨3, ![1, 128, 4096]⟩
abbrev S128x4096 : Shape := ⟨2, ![128, 4096]⟩
abbrev S128 : Shape := ⟨1, ![128]⟩
abbrev S128x1 : Shape := ⟨2, ![128, 1]⟩
abbrev S32x128x1x4096 : Shape := ⟨4, ![32, 128, 1, 4096]⟩
abbrev S32x128x2x4096 : Shape := ⟨4, ![32, 128, 2, 4096]⟩
abbrev S32x256x4096 : Shape := ⟨3, ![32, 256, 4096]⟩

abbrev nBuf : Space → Nat
  | .hbm => 7
  | .vmem => 6
  | .smem => 0
  | _ => 0

abbrev bufTy : (tb : Table) → Fin (tcTables nBuf tb) → BufTy
  | .hbm, ⟨0, _⟩ => ⟨S32x128x4096, .f32⟩
  | .hbm, ⟨1, _⟩ => ⟨S32x128x4096, .f32⟩
  | .hbm, ⟨2, _⟩ => ⟨S32x128x4096, .f32⟩
  | .hbm, ⟨3, _⟩ => ⟨S32x128x1x4096, .f32⟩
  | .hbm, ⟨4, _⟩ => ⟨S32x128x1x4096, .f32⟩
  | .hbm, ⟨5, _⟩ => ⟨S32x128x2x4096, .f32⟩
  | .hbm, ⟨6, _⟩ => ⟨S32x256x4096, .f32⟩
  | .local _ .vmem, ⟨0, _⟩ => ⟨S1x128x4096, .f32⟩
  | .local _ .vmem, ⟨1, _⟩ => ⟨S1x128x4096, .f32⟩
  | .local _ .vmem, ⟨2, _⟩ => ⟨S1x128x4096, .f32⟩
  | .local _ .vmem, ⟨3, _⟩ => ⟨S1x128x4096, .f32⟩
  | .local _ .vmem, ⟨4, _⟩ => ⟨S1x128x4096, .f32⟩
  | .local _ .vmem, ⟨5, _⟩ => ⟨S1x128x4096, .f32⟩
  | _, _ => ⟨S32x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  reduces_S128x4096_S128 : S128x4096.Reduces [1] S128
  shapeCasts_S128_S128x1 : S128.ShapeCasts S128x1
  broadcasts_S128x1_S128x4096 : S128x1.Broadcasts S128x4096
  shapeCasts_S128x4096_S1x128x4096 : S128x4096.ShapeCasts S1x128x4096
  bcast_S32x128x4096_S32x128x1x4096_0_1_3 : S32x128x4096.BroadcastsInDim S32x128x1x4096 (![0, 1, 3] : Fin 3 → Fin S32x128x1x4096.rank)
  concatenates_S32x128x1x4096_S32x128x1x4096_S32x128x2x4096_d2 : Shape.Concatenates [S32x128x1x4096, S32x128x1x4096] S32x128x2x4096 2
  shapeCasts_S32x128x2x4096_S32x256x4096 : S32x128x2x4096.ShapeCasts S32x256x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S32x128x4096.size a
  hwx0_0 : ∀ i : grid0.Coords, EltTy.bits .f32 = 32 ∨ (Rect.block (s := S32x128x4096) S1x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x4096.size a ≤ S32x128x4096.size a
  hwx0_1 : ∀ i : grid0.Coords, EltTy.bits .f32 = 32 ∨ (Rect.block (s := S32x128x4096) S1x128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x4096.size a ≤ S32x128x4096.size a
  hwx0_2 : ∀ i : grid0.Coords, EltTy.bits .f32 = 32 ∨ (Rect.block (s := S32x128x4096) S1x128x4096.size (cc0_transform_2 i) (hinb0_2 i)).WholeWords (EltTy.packing .f32)

variable [Facts₀]

abbrev win0_0 : Pipeline.Window sig grid0 :=
  Pipeline.Window.ofSpec (Memref.whole main_arg0) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x128x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x128x4096 : Shape := ⟨3, ![32, 128, 4096]⟩
abbrev S_ : Shape := ⟨0, ![]⟩
abbrev S32x128 : Shape := ⟨2, ![32, 128]⟩
abbrev S32x128x1 : Shape := ⟨3, ![32, 128, 1]⟩
abbrev S32x128x1x4096 : Shape := ⟨4, ![32, 128, 1, 4096]⟩
abbrev S32x128x2x4096 : Shape := ⟨4, ![32, 128, 2, 4096]⟩
abbrev S32x256x4096 : Shape := ⟨3, ![32, 256, 4096]⟩

abbrev nBuf : Space → Nat
  | .hbm => 27
  | .vmem => 0
  | .smem => 0
  | _ => 0

abbrev bufTy : (tb : Table) → Fin (tcTables nBuf tb) → BufTy
  | .hbm, ⟨0, _⟩ => ⟨S32x128x4096, .f32⟩
  | .hbm, ⟨1, _⟩ => ⟨S_, .f32⟩
  | .hbm, ⟨2, _⟩ => ⟨S32x128, .f32⟩
  | .hbm, ⟨3, _⟩ => ⟨S32x128x1, .f32⟩
  | .hbm, ⟨4, _⟩ => ⟨S32x128x4096, .f32⟩
  | .hbm, ⟨5, _⟩ => ⟨S32x128x4096, .f32⟩
  | .hbm, ⟨6, _⟩ => ⟨S32x128x4096, .f32⟩
  | .hbm, ⟨7, _⟩ => ⟨S_, .f32⟩
  | .hbm, ⟨8, _⟩ => ⟨S32x128, .f32⟩
  | .hbm, ⟨9, _⟩ => ⟨S32x128x1, .f32⟩
  | .hbm, ⟨10, _⟩ => ⟨S32x128x4096, .f32⟩
  | .hbm, ⟨11, _⟩ => ⟨S32x128x4096, .f32⟩
  | .hbm, ⟨12, _⟩ => ⟨S_, .f32⟩
  | .hbm, ⟨13, _⟩ => ⟨S32x128, .f32⟩
  | .hbm, ⟨14, _⟩ => ⟨S32x128x1, .f32⟩
  | .hbm, ⟨15, _⟩ => ⟨S32x128x4096, .f32⟩
  | .hbm, ⟨16, _⟩ => ⟨S32x128x4096, .f32⟩
  | .hbm, ⟨17, _⟩ => ⟨S32x128x4096, .f32⟩
  | .hbm, ⟨18, _⟩ => ⟨S_, .f32⟩
  | .hbm, ⟨19, _⟩ => ⟨S32x128, .f32⟩
  | .hbm, ⟨20, _⟩ => ⟨S32x128x1, .f32⟩
  | .hbm, ⟨21, _⟩ => ⟨S32x128x4096, .f32⟩
  | .hbm, ⟨22, _⟩ => ⟨S32x128x4096, .f32⟩
  | .hbm, ⟨23, _⟩ => ⟨S32x128x1x4096, .f32⟩
  | .hbm, ⟨24, _⟩ => ⟨S32x128x1x4096, .f32⟩
  | .hbm, ⟨25, _⟩ => ⟨S32x128x2x4096, .f32⟩
  | .hbm, ⟨26, _⟩ => ⟨S32x256x4096, .f32⟩
  | _, _ => ⟨S32x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]

class Facts₀ : Prop where
  reducesTo_S32x128x4096_S32x128_d2 : S32x128x4096.ReducesTo [2] S32x128
  h_S_ : 0 < S_.numel
  bcast_S32x128_S32x128x1_0_1 : S32x128.BroadcastsInDim S32x128x1 (![0, 1] : Fin 2 → Fin S32x128x1.rank)
  bcast_S32x128x1_S32x128x4096_0_1_2 : S32x128x1.BroadcastsInDim S32x128x4096 (![0, 1, 2] : Fin 3 → Fin S32x128x4096.rank)
  bcast_S32x128x4096_S32x128x1x4096_0_1_3 : S32x128x4096.BroadcastsInDim S32x128x1x4096 (![0, 1, 3] : Fin 3 → Fin S32x128x1x4096.rank)
  concatenates_S32x128x1x4096_S32x128x1x4096_S32x128x2x4096_d2 : Shape.Concatenates [S32x128x1x4096, S32x128x1x4096] S32x128x2x4096 2
  shapeCasts_S32x128x2x4096_S32x256x4096 : S32x128x2x4096.ShapeCasts S32x256x4096

variable [Facts₀]

class Facts : Prop extends Facts₀ where

variable [Facts]
-- ==== Proof.RowNorm.lean ====
/-
  Two normalizations of one row of 4096 extended reals, and the two arrays they make of a [32, 128, 4096] array.

  For a row r, write M for its largest entry (taken from −∞). The row's WEIGHTS are e₁(k) = exp (r(k) − M), and the
  FIRST normalization divides each weight by the sum of all of them: a(q) = e₁(q) / Σₖ e₁(k). Write μ for the smallest
  weight (taken from +∞). The SECOND WEIGHTS are e₂(k) = exp (μ − e₁(k)), and the second normalization is
  b(q) = e₂(q) / Σₖ e₂(k). Everything is read on the extended reals: the subtraction, the exponential (0 at −∞, +∞ at +∞),
  the sum and the quotient are the extended reals' own, so no finiteness is asked of the row.
-/
import Idealize.ShloMosaic.PureOps.Ideal
import Idealize.ShloMosaic.Lib.ValueIdx

noncomputable section

open scoped BigOperators

namespace Cert.RowNorm

open Idealize.ShloMosaic Idealize.ShloMosaic.ValueIdx

/-- A row's largest entry: the maximum folded over the 4096 entries from −∞ (the f32 word `0xFF800000`). -/
def top (r : Fin 4096 → EReal) : EReal :=
  (Finset.univ : Finset (Fin 4096)).fold max (Ideal.ofBits .f32 0xFF800000#32) r

/-- A row's smallest entry: the minimum folded over the 4096 entries from +∞ (the f32 word `0x7F800000`). -/
def bottom (r : Fin 4096 → EReal) : EReal :=
  (Finset.univ : Finset (Fin 4096)).fold min (Ideal.ofBits .f32 0x7F800000#32) r

/-- The weights of a row: the exponential of each entry's distance below the largest one. -/
def weights (r : Fin 4096 → EReal) : Fin 4096 → EReal := fun k => Ideal.exp (r k - top r)

/-- The second weights of a row: the exponential of the smallest weight less each weight. -/
def weights₂ (r : Fin 4096 → EReal) : Fin 4096 → EReal := fun k => Ideal.exp (bottom (weights r) - weights r k)

/-- Each entry of a row divided by the sum of the row. -/
def share (e : Fin 4096 → EReal) : Fin 4096 → EReal := fun q => Ideal.div (e q) (∑ k : Fin 4096, e k)

/-- The first normalization of a row: its weights, each over their sum. -/
def first (r : Fin 4096 → EReal) : Fin 4096 → EReal := share (weights r)

/-- The second normalization of a row: its second weights, each over their sum. -/
def second (r : Fin 4096 → EReal) : Fin 4096 → EReal := share (weights₂ r)

/-- Row (b, p) of a [32, 128, 4096] array. -/
def row (X : (⟨3, ![32, 128, 4096]⟩ : Shape).Idx → EReal) (b : Fin 32) (p : Fin 128) : Fin 4096 → EReal :=
  fun k => X (ix3 b p k)

/-- The array of first normalizations: entry (b, p, q) is the first normalization of row (b, p), at q. -/
def firstArr (X : (⟨3, ![32, 128, 4096]⟩ : Shape).Idx → EReal) : (⟨3, ![32, 128, 4096]⟩ : Shape).Idx → EReal :=
  fun i => first (row X (i 0) (i 1)) (i 2)

/-- The array of second normalizations: entry (b, p, q) is the second normalization of row (b, p), at q. -/
def secondArr (X : (⟨3, ![32, 128, 4096]⟩ : Shape).Idx → EReal) : (⟨3, ![32, 128, 4096]⟩ : Shape).Idx → EReal :=
  fun i => second (row X (i 0) (i 1)) (i 2)

theorem firstArr_ix3 (X : (⟨3, ![32, 128, 4096]⟩ : Shape).Idx → EReal) (b : Fin 32) (p : Fin 128) (q : Fin 4096) :
    firstArr X (ix3 b p q) = first (row X b p) q := rfl

theorem secondArr_ix3 (X : (⟨3, ![32, 128, 4096]⟩ : Shape).Idx → EReal) (b : Fin 32) (p : Fin 128) (q : Fin 4096) :
    secondArr X (ix3 b p q) = second (row X b p) q := rfl

end Cert.RowNorm

end
-- ==== Proof.RowOps.lean ====
/-
  A reduction along the last axis read at one row, on the extended reals.

  Three facts about a [128, 4096] array x, each read at entry (p, q) of the array obtained by reducing x along its rows,
  viewing the 128 results as a column [128, 1] and spreading the column back over [128, 4096]: the maximum from −∞ is the
  largest entry of row p, the minimum from +∞ its smallest, the sum from 0 the sum of the row. And the same three for
  a [32, 128, 4096] array reduced along its last axis, read at (b, p): there the reduction starts from a stated initial
  value. In every case the reduced index with the coordinate k put back is (p, k), respectively (b, p, k), and the
  order in which the entries are combined does not matter because max, min and + commute and associate.
-/
import Idealize.ShloMosaic.PureOps.Ideal.Laws
import Idealize.ShloMosaic.Lib.Pipeline.Value
import Idealize.ShloMosaic.Lib.ValueIdx
import proofs.«130782_j62543313764812_1_alg».proof.Proof.RowNorm

noncomputable section

open scoped BigOperators

namespace Cert.RowOps

open Idealize.ShloMosaic Idealize.ShloMosaic.ValueIdx

/-- A vector of 128 entries viewed as a column [128, 1] and spread over [128, 4096] reads, at (p, q), entry p. -/
theorem column_apply {α : Type} (w : (⟨1, ![128]⟩ : Shape).Idx → α)
    (h1 : (⟨1, ![128]⟩ : Shape).ShapeCasts ⟨2, ![128, 1]⟩) (h2 : (⟨2, ![128, 1]⟩ : Shape).Broadcasts ⟨2, ![128, 4096]⟩)
    (p : Fin 128) (q : Fin 4096) :
    broadcastTo ⟨2, ![128, 4096]⟩ (shapeCast ⟨2, ![128, 1]⟩ w h1) h2 (ix2 p q) = w (ix1 p) := by
  refine (broadcastTo_apply _ h2 (ix2 p q) (ix2 p (0 : Fin 1)) fun ax => ?_).trans ?_
  · match ax with
    | ⟨0, _⟩ => show p.val = if (128 : Nat) = 1 then 0 else p.val; rw [if_neg (by decide)]
    | ⟨1, _⟩ => show (0 : Nat) = if (1 : Nat) = 1 then 0 else q.val; rw [if_pos rfl]
  · exact shapeCast_apply w h1 _ _ (by
      rw [Shape.rowMajor_val_one, Shape.rowMajor_val_two]
      show p.val = p.val * 1 + 0
      omega)

/-- The exponential of an array, read at an index. -/
theorem exp_apply {s : Shape} {φ : FTy} (a : FVec Ideal s φ) (i : s.Idx) : exp a i = Ideal.exp (a i) := rfl

/-- Row p's index with the coordinate k put back on the reduced axis is (p, k). -/
theorem lift_row (h : (⟨2, ![128, 4096]⟩ : Shape).Reduces [1] ⟨1, ![128]⟩) (p : Fin 128)
    (k : Fin ((⟨2, ![128, 4096]⟩ : Shape).size 1)) : h.lift (ix1 p) k = ix2 p (⟨k.val, k.isLt⟩ : Fin 4096) := by
  funext c; apply Fin.ext
  fin_cases c <;> rfl

/-- Index (b, p) with the coordinate k put back on the reduced last axis is (b, p, k). -/
theorem lift_row3 (h : (⟨3, ![32, 128, 4096]⟩ : Shape).Reduces [2] ⟨2, ![32, 128]⟩) (b : Fin 32) (p : Fin 128)
    (k : Fin ((⟨3, ![32, 128, 4096]⟩ : Shape).size 2)) : h.lift (ix2 b p) k = ix3 b p (⟨k.val, k.isLt⟩ : Fin 4096) := by
  funext c; apply Fin.ext
  fin_cases c <;> rfl

/-! ## Rows of a [128, 4096] array -/

/-- The row maximum from −∞, as a column spread back over the array, is the row's largest entry. -/
theorem max_column (x : FVec Ideal ⟨2, ![128, 4096]⟩ .f32) (h : (⟨2, ![128, 4096]⟩ : Shape).Reduces [1] ⟨1, ![128]⟩)
    (hφ : FKind.Formats .f32) (hacc : (0xFF800000#32 : BitVec 32) = FKind.maximumf.neutral .f32 hφ)
    (h1 : (⟨1, ![128]⟩ : Shape).ShapeCasts ⟨2, ![128, 1]⟩) (h2 : (⟨2, ![128, 1]⟩ : Shape).Broadcasts ⟨2, ![128, 4096]⟩)
    (p : Fin 128) (q : Fin 4096) :
    broadcastTo ⟨2, ![128, 4096]⟩ (shapeCast ⟨2, ![128, 1]⟩
      (multiReduction .maximumf [1] ⟨1, ![128]⟩ x 0xFF800000#32 h hφ hacc) h1) h2 (ix2 p q)
      = RowNorm.top fun k => x (ix2 p k) := by
  refine (column_apply _ h1 h2 p q).trans ?_
  refine (Ideal.multiReduction_maximumf_single x 0xFF800000#32 h hφ hacc (ix1 p)).trans ?_
  unfold RowNorm.top
  exact congrArg (fun f => Finset.fold max (Ideal.ofBits .f32 0xFF800000#32) f (Finset.univ : Finset (Fin 4096)))
    (funext fun k => congrArg x (lift_row h p k))

/-- The row minimum from +∞, as a column spread back over the array, is the row's smallest entry. -/
theorem min_column (x : FVec Ideal ⟨2, ![128, 4096]⟩ .f32) (h : (⟨2, ![128, 4096]⟩ : Shape).Reduces [1] ⟨1, ![128]⟩)
    (hφ : FKind.Formats .f32) (hacc : (0x7F800000#32 : BitVec 32) = FKind.minimumf.neutral .f32 hφ)
    (h1 : (⟨1, ![128]⟩ : Shape).ShapeCasts ⟨2, ![128, 1]⟩) (h2 : (⟨2, ![128, 1]⟩ : Shape).Broadcasts ⟨2, ![128, 4096]⟩)
    (p : Fin 128) (q : Fin 4096) :
    broadcastTo ⟨2, ![128, 4096]⟩ (shapeCast ⟨2, ![128, 1]⟩
      (multiReduction .minimumf [1] ⟨1, ![128]⟩ x 0x7F800000#32 h hφ hacc) h1) h2 (ix2 p q)
      = RowNorm.bottom fun k => x (ix2 p k) := by
  refine (column_apply _ h1 h2 p q).trans ?_
  refine (multiReduction_minimumf_eq_fold x 0x7F800000#32 h hφ hacc (ix1 p)).trans ?_
  refine (h.fold_filter_drop_single _ _ x (ix1 p)).trans ?_
  unfold RowNorm.bottom
  exact congrArg (fun f => Finset.fold min (Ideal.ofBits .f32 0x7F800000#32) f (Finset.univ : Finset (Fin 4096)))
    (funext fun k => congrArg x (lift_row h p k))

/-- The row sum from 0, as a column spread back over the array, is the sum of the row. -/
theorem sum_column (x : FVec Ideal ⟨2, ![128, 4096]⟩ .f32) (h : (⟨2, ![128, 4096]⟩ : Shape).Reduces [1] ⟨1, ![128]⟩)
    (hφ : FKind.Formats .f32) (hacc : (0x00000000#32 : BitVec 32) = FKind.add.neutral .f32 hφ)
    (h1 : (⟨1, ![128]⟩ : Shape).ShapeCasts ⟨2, ![128, 1]⟩) (h2 : (⟨2, ![128, 1]⟩ : Shape).Broadcasts ⟨2, ![128, 4096]⟩)
    (p : Fin 128) (q : Fin 4096) :
    broadcastTo ⟨2, ![128, 4096]⟩ (shapeCast ⟨2, ![128, 1]⟩
      (multiReduction .add [1] ⟨1, ![128]⟩ x 0x00000000#32 h hφ hacc) h1) h2 (ix2 p q)
      = ∑ k : Fin 4096, x (ix2 p k) := by
  refine (column_apply _ h1 h2 p q).trans ?_
  refine (Ideal.multiReduction_add_single x 0x00000000#32 h hφ hacc (ix1 p)).trans ?_
  exact Finset.sum_congr rfl fun k _ => congrArg x (lift_row h p k)

/-! ## Rows of a [32, 128, 4096] array, reduced by the host -/

/-- The host's maximum along the last axis from the scalar −∞, at (b, p), is the largest entry of row (b, p). -/
theorem host_max (X : FVec Ideal ⟨3, ![32, 128, 4096]⟩ .f32) (h' : (⟨3, ![32, 128, 4096]⟩ : Shape).ReducesTo [2] ⟨2, ![32, 128]⟩)
    (hu : 0 < (⟨0, ![]⟩ : Shape).numel) (b : Fin 32) (p : Fin 128) :
    Host.reduce FloatOps.maximumf X (constant (F := Ideal) (⟨0, ![]⟩ : Shape) .f32 0xFF800000#32) h' hu (ix2 b p)
      = RowNorm.top (RowNorm.row X b p) := by
  have h : (⟨3, ![32, 128, 4096]⟩ : Shape).Reduces [2] ⟨2, ![32, 128]⟩ := by decide
  refine (Host.reduce_eq_fold_single FloatOps.maximumf X _ h' h hu (ix2 b p)).trans ?_
  unfold RowNorm.top RowNorm.row
  exact congrArg (fun f => Finset.fold max (Ideal.ofBits .f32 0xFF800000#32) f (Finset.univ : Finset (Fin 4096)))
    (funext fun k => congrArg X (lift_row3 h b p k))

/-- The host's minimum along the last axis from the scalar +∞, at (b, p), is the smallest entry of row (b, p). -/
theorem host_min (X : FVec Ideal ⟨3, ![32, 128, 4096]⟩ .f32) (h' : (⟨3, ![32, 128, 4096]⟩ : Shape).ReducesTo [2] ⟨2, ![32, 128]⟩)
    (hu : 0 < (⟨0, ![]⟩ : Shape).numel) (b : Fin 32) (p : Fin 128) :
    Host.reduce FloatOps.minimumf X (constant (F := Ideal) (⟨0, ![]⟩ : Shape) .f32 0x7F800000#32) h' hu (ix2 b p)
      = RowNorm.bottom (RowNorm.row X b p) := by
  have h : (⟨3, ![32, 128, 4096]⟩ : Shape).Reduces [2] ⟨2, ![32, 128]⟩ := by decide
  refine (Host.reduce_eq_fold_single FloatOps.minimumf X _ h' h hu (ix2 b p)).trans ?_
  unfold RowNorm.bottom RowNorm.row
  exact congrArg (fun f => Finset.fold min (Ideal.ofBits .f32 0x7F800000#32) f (Finset.univ : Finset (Fin 4096)))
    (funext fun k => congrArg X (lift_row3 h b p k))

end Cert.RowOps

end
-- ==== Proof.KernelRow.lean ====
/-
  What the kernel's body stores, read at one entry of a block, on the extended reals.

  The body loads one [1, 128, 4096] block, drops the unit axis, and computes for each of the 128 rows: the row maximum
  from −∞, the weights exp (x − max), their sum, and the weights over the sum (the first store); then the minimum of the
  weights from +∞, the second weights exp (min − weight), their sum, and the second weights over that sum (the second
  store). Each row reduction comes back as a column spread over the row, so entry (p, q) of it is the reduction of row
  p. Hence entry (0, p, q) of the first store is the first normalization of row p of the block at q, and entry (0, p, q)
  of the second store is the second normalization of that row at q.
-/
import proofs.«130782_j62543313764812_1_alg».proof.Proof.Gen.KernelIdeal.Skeleton
import Idealize.ShloMosaic.Lib.ValueLayout
import proofs.«130782_j62543313764812_1_alg».proof.Proof.RowOps

noncomputable section

open scoped BigOperators

namespace Cert.KernelIdeal.Rows

open Cert.KernelIdeal Cert.KernelIdeal.Gen Idealize.ShloMosaic Idealize.ShloMosaic.ValueIdx

/-- Row p of a [1, 128, 4096] block. -/
def blockRow (v0 : FVec Ideal S1x128x4096 .f32) (p : Fin 128) : Fin 4096 → EReal := fun k => v0 (ix3 (0 : Fin 1) p k)

/-- The block with its unit axis dropped reads (p, k) at (0, p, k). -/
theorem dropped_apply (v0 : FVec Ideal S1x128x4096 .f32) (h : S1x128x4096.ShapeCasts S128x4096) (p : Fin 128) (k : Fin 4096) :
    shapeCast S128x4096 v0 h (ix2 p k) = blockRow v0 p k :=
  shapeCast_1ab_ab_apply v0 h p k

/-- The weights the body computes, at (p, k): the weights of row p of the block, at k. -/
theorem weights_apply (v0 : FVec Ideal S1x128x4096 .f32) (p : Fin 128) (k : Fin 4096) :
    k0_pay1 (F := Ideal) v0 (ix2 p k) = RowNorm.weights (blockRow v0 p) k := by
  have e2 := RowOps.max_column (shapeCast S128x4096 v0 shapeCasts_S1x128x4096_S128x4096) reduces_S128x4096_S128 (.inl rfl) rfl
    shapeCasts_S128_S128x1 broadcasts_S128x1_S128x4096 p k
  unfold k0_pay1
  show Ideal.exp (shapeCast S128x4096 v0 _ (ix2 p k) - broadcastTo S128x4096 (shapeCast S128x1
    (multiReduction .maximumf [1] S128 (shapeCast S128x4096 v0 _) 0xFF800000#32 _ _ _) _) _ (ix2 p k)) = _
  rw [e2]
  simp only [dropped_apply]
  rfl

/-- The first store, at (u, p, q): the first normalization of row p of the block, at q. -/
theorem first_apply (v0 : FVec Ideal S1x128x4096 .f32) (u : Fin 1) (p : Fin 128) (q : Fin 4096) :
    k0_pay2 (F := Ideal) v0 (ix3 u p q) = RowNorm.first (blockRow v0 p) q := by
  have e3 := RowOps.sum_column (k0_pay1 (F := Ideal) v0) reduces_S128x4096_S128 (.inl rfl) rfl
    shapeCasts_S128_S128x1 broadcasts_S128x1_S128x4096 p q
  unfold k0_pay2
  refine (shapeCast_ab_1ab_apply _ _ u p q).trans ?_
  show Ideal.div (k0_pay1 (F := Ideal) v0 (ix2 p q)) (broadcastTo S128x4096 (shapeCast S128x1
    (multiReduction .add [1] S128 (k0_pay1 (F := Ideal) v0) 0x00000000#32 _ _ _) _) _ (ix2 p q)) = _
  rw [e3]
  simp only [weights_apply]
  rfl

/-- The second weights the body computes, at (p, k): the second weights of row p of the block, at k. -/
theorem weights₂_apply (v0 : FVec Ideal S1x128x4096 .f32) (p : Fin 128) (k : Fin 4096) :
    exp (subf (broadcastTo S128x4096 (shapeCast S128x1
      (multiReduction .minimumf [1] S128 (k0_pay1 (F := Ideal) v0) 0x7F800000#32 reduces_S128x4096_S128 (.inl rfl) rfl) shapeCasts_S128_S128x1)
        broadcasts_S128x1_S128x4096) (k0_pay1 (F := Ideal) v0)) (ix2 p k)
      = RowNorm.weights₂ (blockRow v0 p) k := by
  have e4 := RowOps.min_column (k0_pay1 (F := Ideal) v0) reduces_S128x4096_S128 (.inl rfl) rfl
    shapeCasts_S128_S128x1 broadcasts_S128x1_S128x4096 p k
  rw [RowOps.exp_apply, subf_apply, e4]
  simp only [weights_apply]
  rfl

/-- The second store, at (u, p, q): the second normalization of row p of the block, at q. -/
theorem second_apply (v0 : FVec Ideal S1x128x4096 .f32) (u : Fin 1) (p : Fin 128) (q : Fin 4096) :
    k0_pay3 (F := Ideal) v0 (ix3 u p q) = RowNorm.second (blockRow v0 p) q := by
  have e5 := RowOps.sum_column (exp (subf (broadcastTo S128x4096 (shapeCast S128x1
      (multiReduction .minimumf [1] S128 (k0_pay1 (F := Ideal) v0) 0x7F800000#32 reduces_S128x4096_S128 (.inl rfl) rfl) shapeCasts_S128_S128x1)
        broadcasts_S128x1_S128x4096) (k0_pay1 (F := Ideal) v0))) reduces_S128x4096_S128 (.inl rfl) rfl
    shapeCasts_S128_S128x1 broadcasts_S128x1_S128x4096 p q
  unfold k0_pay3
  refine (shapeCast_ab_1ab_apply _ _ u p q).trans ?_
  rw [divf_apply, e5]
  exact congrArg₂ Ideal.div (weights₂_apply v0 p q) (Finset.sum_congr rfl fun k _ => weights₂_apply v0 p k)

end Cert.KernelIdeal.Rows

end
-- ==== Proof.KernelArrays.lean ====
/-
  The kernel's two output arrays after the run, as whole-array functions of the argument.

  The grid has 32 points; at point t each of the three windows (the argument and the two outputs) stages block (t, 0, 0)
  of its [32, 128, 4096] array, a [1, 128, 4096] block, so entry (u, p, q) of a block at point t is entry (t, p, q) of
  the array. The body's first store at (u, p, q) is the first normalization of row p of the input block, which is row
  (t, p) of the argument: the block written back at point t is block t of the array of first normalizations of the
  argument. The 32 blocks are pairwise different and cover the array (the point that covers (b, p, q) is b), so after the
  run the first output array IS the array of first normalizations; likewise the second.
-/
import proofs.«130782_j62543313764812_1_alg».proof.Proof.Gen.KernelIdeal.Frame
import Idealize.ShloMosaic.Lib.Pipeline.Value
import proofs.«130782_j62543313764812_1_alg».proof.Proof.KernelRow

noncomputable section

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's rectangles start at the origin. -/
theorem origin : (![0, 0, 0] : Fin 3 → Nat) = fun _ => 0 := funext fun a => by fin_cases a <;> rfl

/-- The three windows move together: at every point their block index is (b, 0, 0) with one b below 32. -/
theorem together : ∀ t : Fin cfg0.N,
    win0_0.index t (0 : Fin 3) = win0_1.index t (0 : Fin 3) ∧ win0_0.index t (1 : Fin 3) = 0 ∧ win0_0.index t (2 : Fin 3) = 0
    ∧ win0_2.index t (0 : Fin 3) = win0_1.index t (0 : Fin 3) ∧ win0_2.index t (1 : Fin 3) = 0 ∧ win0_2.index t (2 : Fin 3) = 0
    ∧ win0_1.index t (1 : Fin 3) = 0 ∧ win0_1.index t (2 : Fin 3) = 0 ∧ win0_1.index t (0 : Fin 3) < 32 :=
  (by decide +kernel : ∀ t : Fin grid0.N, _)

/-- Every b below 32 is some point's block index, for both outputs. -/
theorem every_block : ∀ b : Fin 32, ∃ t : Fin cfg0.N, win0_1.index t = ![b.val, 0, 0] ∧ win0_2.index t = ![b.val, 0, 0] :=
  (by decide +kernel : ∀ b : Fin 32, ∃ t : Fin grid0.N, win0_1.index t = ![b.val, 0, 0] ∧ win0_2.index t = ![b.val, 0, 0])

/-- Row p of the input block at point t is row (b, p) of the argument, b the point's block index. -/
theorem input_row (c : Dev nD) (t : Fin cfg0.N) (b : Fin 32) (hb : win0_0.index t (0 : Fin 3) = b.val)
    (h1 : win0_0.index t (1 : Fin 3) = 0) (h2 : win0_0.index t (2 : Fin 3) = 0) (p : Fin 128) :
    Rows.blockRow (iblk m c 0 t) p = RowNorm.row (V m c main_arg0) b p := by
  funext k
  show V m c main_arg0 (((cfg0.win 0).blk t).view.emb (ix3 (0 : Fin 1) p k)) = V m c main_arg0 (ix3 b p k)
  refine congrArg (V m c main_arg0) ?_
  funext a; apply Fin.ext
  match a with
  | ⟨0, _⟩ => show win0_0.index t (0 : Fin 3) * 1 + 1 * 0 = b.val; omega
  | ⟨1, _⟩ => show win0_0.index t (1 : Fin 3) * 128 + 1 * p.val = p.val; omega
  | ⟨2, _⟩ => show win0_0.index t (2 : Fin 3) * 4096 + 1 * k.val = k.val; omega

/-! ## The first output -/

/-- What point t writes back to the first output is block t of the array of first normalizations of the argument. -/
theorem flushed_first (c : Dev nD) (t : Fin cfg0.N) :
    (dats m 0 c).flushed 1 t = ((cfg0.win 1).blk t).view.read (Elt Ideal) (RowNorm.firstArr (V m c main_arg0)) := by
  show (cfg0.win 1).cut (grid0.coords t) ((dats m 0 c).after 1 t) = _
  rw [after0_1]
  unfold out0_1
  rw [View.canon_unit_zero origin]
  simp only [View.ld_unit_zero (S := S1x128x4096) origin]
  obtain ⟨e0, e1, e2, e3, e4, e5, e6, e7, e8⟩ := together t
  funext j
  obtain ⟨u, p, q, rfl⟩ : ∃ (u : Fin 1) (p : Fin 128) (q : Fin 4096), j = ix3 u p q := ⟨j 0, j 1, j 2, eq_ix3 j⟩
  show k0_pay2 (F := Ideal) (iblk m c 0 t) (ix3 u p q)
    = RowNorm.firstArr (V m c main_arg0) (((cfg0.win 1).blk t).view.emb (ix3 u p q))
  have hpos : ((cfg0.win 1).blk t).view.emb (ix3 u p q) = ix3 (⟨win0_1.index t (0 : Fin 3), e8⟩ : Fin 32) p q := by
    funext a; apply Fin.ext
    match a with
    | ⟨0, _⟩ => show win0_1.index t (0 : Fin 3) * 1 + 1 * u.val = win0_1.index t (0 : Fin 3); have := u.isLt; omega
    | ⟨1, _⟩ => show win0_1.index t (1 : Fin 3) * 128 + 1 * p.val = p.val; omega
    | ⟨2, _⟩ => show win0_1.index t (2 : Fin 3) * 4096 + 1 * q.val = q.val; omega
  rw [hpos, RowNorm.firstArr_ix3]
  refine (Rows.first_apply (iblk m c 0 t) u p q).trans ?_
  exact congrArg (fun r => RowNorm.first r q) (input_row m c t ⟨win0_1.index t (0 : Fin 3), e8⟩ e0 e1 e2 p)

/-- An index of the first output's array is in point t's block iff each coordinate is in the block's range. -/
theorem mem_first (t : Fin cfg0.N) (i : S32x128x4096.Idx) :
    i ∈ ((cfg0.win 1).blk t).view.set ↔ ∀ a : Fin 3, win0_1.index t a * S1x128x4096.size a ≤ (i a).val
      ∧ (i a).val < win0_1.index t a * S1x128x4096.size a + S1x128x4096.size a := by
  show i ∈ ((View.whole main_v0_0).slice (win0_1.rect t)).set ↔ _
  rw [View.set_slice_whole, Rect.mem_set_unit]
  exact Iff.rfl

/-- Every index of the first output's array is in some point's block: (b, p, q) is in the block of the point whose
    block index is b. -/
theorem cover_first (i : S32x128x4096.Idx) :
    ∃ t : Fin cfg0.N, (cfg0.win 1).flush t = true ∧ i ∈ ((cfg0.win 1).blk t).view.set := by
  have hi0 : (i 0).val < 32 := (i 0).isLt
  have hi1 : (i 1).val < 128 := (i 1).isLt
  have hi2 : (i 2).val < 4096 := (i 2).isLt
  obtain ⟨t, ht, -⟩ := every_block ⟨(i 0).val, hi0⟩
  have q0 : win0_1.index t (0 : Fin 3) = (i 0).val := congrFun ht 0
  have q1 : win0_1.index t (1 : Fin 3) = 0 := congrFun ht 1
  have q2 : win0_1.index t (2 : Fin 3) = 0 := congrFun ht 2
  refine ⟨t, flush0_1 t, ?_⟩
  rw [mem_first]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 128 ≤ (i 1).val ∧ (i 1).val < win0_1.index t (1 : Fin 3) * 128 + 128; omega
  | ⟨2, _⟩ => show win0_1.index t (2 : Fin 3) * 4096 ≤ (i 2).val ∧ (i 2).val < win0_1.index t (2 : Fin 3) * 4096 + 4096; omega

/-- After the run the first output array is the array of first normalizations of the argument. -/
theorem final_first (c : Dev nD) : (dats m 0 c).arrAt 1 cfg0.N = RowNorm.firstArr (V m c main_arg0) :=
  (dats m 0 c).arrAt_eq_of_cover 1 _ (fun t _ => flushed_first m c t) cover_first

/-! ## The second output -/

/-- What point t writes back to the second output is block t of the array of second normalizations of the argument. -/
theorem flushed_second (c : Dev nD) (t : Fin cfg0.N) :
    (dats m 0 c).flushed 2 t = ((cfg0.win 2).blk t).view.read (Elt Ideal) (RowNorm.secondArr (V m c main_arg0)) := by
  show (cfg0.win 2).cut (grid0.coords t) ((dats m 0 c).after 2 t) = _
  rw [after0_2]
  unfold out0_2
  rw [View.canon_unit_zero origin]
  simp only [View.ld_unit_zero (S := S1x128x4096) origin]
  obtain ⟨e0, e1, e2, e3, e4, e5, e6, e7, e8⟩ := together t
  funext j
  obtain ⟨u, p, q, rfl⟩ : ∃ (u : Fin 1) (p : Fin 128) (q : Fin 4096), j = ix3 u p q := ⟨j 0, j 1, j 2, eq_ix3 j⟩
  show k0_pay3 (F := Ideal) (iblk m c 0 t) (ix3 u p q)
    = RowNorm.secondArr (V m c main_arg0) (((cfg0.win 2).blk t).view.emb (ix3 u p q))
  have hpos : ((cfg0.win 2).blk t).view.emb (ix3 u p q) = ix3 (⟨win0_1.index t (0 : Fin 3), e8⟩ : Fin 32) p q := by
    funext a; apply Fin.ext
    match a with
    | ⟨0, _⟩ => show win0_2.index t (0 : Fin 3) * 1 + 1 * u.val = win0_1.index t (0 : Fin 3); have := u.isLt; omega
    | ⟨1, _⟩ => show win0_2.index t (1 : Fin 3) * 128 + 1 * p.val = p.val; omega
    | ⟨2, _⟩ => show win0_2.index t (2 : Fin 3) * 4096 + 1 * q.val = q.val; omega
  rw [hpos, RowNorm.secondArr_ix3]
  refine (Rows.second_apply (iblk m c 0 t) u p q).trans ?_
  exact congrArg (fun r => RowNorm.second r q) (input_row m c t ⟨win0_1.index t (0 : Fin 3), e8⟩ e0 e1 e2 p)

/-- An index of the second output's array is in point t's block iff each coordinate is in the block's range. -/
theorem mem_second (t : Fin cfg0.N) (i : S32x128x4096.Idx) :
    i ∈ ((cfg0.win 2).blk t).view.set ↔ ∀ a : Fin 3, win0_2.index t a * S1x128x4096.size a ≤ (i a).val
      ∧ (i a).val < win0_2.index t a * S1x128x4096.size a + S1x128x4096.size a := by
  show i ∈ ((View.whole main_v0_1).slice (win0_2.rect t)).set ↔ _
  rw [View.set_slice_whole, Rect.mem_set_unit]
  exact Iff.rfl

/-- Every index of the second output's array is in some point's block. -/
theorem cover_second (i : S32x128x4096.Idx) :
    ∃ t : Fin cfg0.N, (cfg0.win 2).flush t = true ∧ i ∈ ((cfg0.win 2).blk t).view.set := by
  have hi0 : (i 0).val < 32 := (i 0).isLt
  have hi1 : (i 1).val < 128 := (i 1).isLt
  have hi2 : (i 2).val < 4096 := (i 2).isLt
  obtain ⟨t, -, ht⟩ := every_block ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_second]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 4096 ≤ (i 2).val ∧ (i 2).val < win0_2.index t (2 : Fin 3) * 4096 + 4096; omega

/-- After the run the second output array is the array of second normalizations of the argument. -/
theorem final_second (c : Dev nD) : (dats m 0 c).arrAt 2 cfg0.N = RowNorm.secondArr (V m c main_arg0) :=
  (dats m 0 c).arrAt_eq_of_cover 2 _ (fun t _ => flushed_second m c t) cover_second

end Cert.KernelIdeal.Arrays

end
-- ==== Proof.Interleave.lean ====
/-
  The row interleave both programs end with: two [32, 128, 4096] arrays a and b become one [32, 256, 4096] array whose
  row 2p of each batch is row p of a and whose row 2p + 1 is row p of b. It is spelt as the programs spell it — each
  array gets a unit axis in front of its last one, the two are joined along that axis into [32, 128, 2, 4096], and the
  result is recast to [32, 256, 4096] — and is never opened: the two programs apply this one function, so it is enough
  that they apply it to equal arrays.
-/
import Idealize.ShloMosaic.PureOps.Ideal

noncomputable section

namespace Cert.RowNorm

open Idealize.ShloMosaic

/-- A [32, 128, 4096] array gets a unit axis in front of its last one. -/
theorem widens : (⟨3, ![32, 128, 4096]⟩ : Shape).BroadcastsInDim ⟨4, ![32, 128, 1, 4096]⟩ (![0, 1, 3] : Fin 3 → Fin 4) := by
  decide

/-- Two [32, 128, 1, 4096] arrays join along axis 2 into [32, 128, 2, 4096]. -/
theorem joins : Shape.Concatenates [(⟨4, ![32, 128, 1, 4096]⟩ : Shape), ⟨4, ![32, 128, 1, 4096]⟩] ⟨4, ![32, 128, 2, 4096]⟩ 2 := by
  decide

/-- [32, 128, 2, 4096] recasts to [32, 256, 4096]. -/
theorem recasts : (⟨4, ![32, 128, 2, 4096]⟩ : Shape).ShapeCasts ⟨3, ![32, 256, 4096]⟩ := by decide

/-- The interleave of the rows of two [32, 128, 4096] arrays. -/
def interleave (a b : (⟨3, ![32, 128, 4096]⟩ : Shape).Idx → EReal) : (⟨3, ![32, 256, 4096]⟩ : Shape).Idx → EReal :=
  shapeCast ⟨3, ![32, 256, 4096]⟩
    (concatenate ⟨4, ![32, 128, 2, 4096]⟩ 2
      [⟨⟨4, ![32, 128, 1, 4096]⟩, broadcastInDim ⟨4, ![32, 128, 1, 4096]⟩ ![0, 1, 3] widens a⟩,
       ⟨⟨4, ![32, 128, 1, 4096]⟩, broadcastInDim ⟨4, ![32, 128, 1, 4096]⟩ ![0, 1, 3] widens b⟩] joins)
    recasts

end Cert.RowNorm

end
-- ==== Proof.KernelRun.lean ====
/-
  The kernel program's run, read: its result is the interleave of the two normalized arrays of the argument.

  After the region the first output array holds the first normalizations of the argument's rows and the second output
  array the second normalizations. The four lines that follow give each a unit axis, join them along it and recast the
  result to [32, 256, 4096]: the interleave of the two arrays. The argument itself is staged and never written back.
-/
import proofs.«130782_j62543313764812_1_alg».proof.Proof.KernelArrays
import proofs.«130782_j62543313764812_1_alg».proof.Proof.Interleave
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The first output's array, as the lines after the region find it: the first normalizations of the argument. -/
theorem found_first (c : Dev nD) :
    Pipeline.withArrays (cfgs 0).spec c (V0 m c) (fun w => (dats m 0 c).arrAt w (cfgs 0).N) (Proc.devRef .tc main_v0_0)
      = RowNorm.firstArr (V m c main_arg0) :=
  (Pipeline.withArrays_arr spec0 launch0.win.arr_inj c _ _ 1).trans (Arrays.final_first m c)

/-- The second output's array, as the lines after the region find it: the second normalizations of the argument. -/
theorem found_second (c : Dev nD) :
    Pipeline.withArrays (cfgs 0).spec c (V0 m c) (fun w => (dats m 0 c).arrAt w (cfgs 0).N) (Proc.devRef .tc main_v0_1)
      = RowNorm.secondArr (V m c main_arg0) :=
  (Pipeline.withArrays_arr spec0 launch0.win.arr_inj c _ _ 2).trans (Arrays.final_second m c)

/-- What the lines after the region leave in the result: the interleave of the two normalized arrays. -/
theorem tail_eq (c : Dev nD) :
    Pipeline.afterTail₀ cfgs (dats m) 0 (V0 m) [hostOps1] c main_v4
      = RowNorm.interleave (RowNorm.firstArr (V m c main_arg0)) (RowNorm.secondArr (V m c main_arg0)) := by
  rw [← found_first m c, ← found_second m c]
  unfold Pipeline.afterTail₀
  show StableHlo.after hostOps1 _ (Proc.devRef .tc main_v4) = _
  after_results
  rfl

/-- Every weakly fair execution of the kernel program terminates with the result at the interleave of the two
    normalized arrays of the argument, the argument unchanged. -/
theorem run : θ_run defs (onTc (τ := τ) (main (F := Ideal))) ⟨m, fun _ => 0, ρ⟩ fun r => ∀ c : Dev nD,
      r.2.mem ((c.tc : Thread nD τ).loc main_v4)
        = RowNorm.interleave (RowNorm.firstArr (m ((c.tc : Thread nD τ).loc main_arg0)))
            (RowNorm.secondArr (m ((c.tc : Thread nD τ).loc main_arg0)))
      ∧ r.2.mem ((c.tc : Thread nD τ).loc main_arg0) = m ((c.tc : Thread nD τ).loc main_arg0) :=
  (θ_run defs _ _).mono (fun r h c =>
      ⟨((h c).2 main_v4 (Pipeline.mem_restRefs_of main_v4 rfl (by decide))).trans (tail_eq m c),
        ((h c).1 0).trans (((dats m 0 c).arrAt_in 0 rfl _).trans ((A_eq m c 0).trans (V_main_arg0 m c)))⟩)
    (run_main m ρ)

end Cert.KernelIdeal.Result

end
-- ==== Proof.ReferenceRow.lean ====
/-
  The reference's two normalized arrays, read at one entry, on the extended reals.

  The reference takes the maximum of the [32, 128, 4096] argument along its last axis from −∞ and spreads it back, takes
  the exponential of the difference (the weights), sums the weights along the last axis from 0 and divides; then takes the
  minimum of the weights along the last axis from +∞, the exponential of that minimum less the weights (the second
  weights), their sum from 0 and the quotient. Read at (b, p, q), each reduction is the reduction of row (b, p) of its
  operand, so the first quotient is the first normalization of row (b, p) of the argument at q and the second quotient is
  its second normalization at q: the two arrays the specification names.
-/
import proofs.«130782_j62543313764812_1_alg».proof.Proof.Gen.ReferenceIdeal.Read
import proofs.«130782_j62543313764812_1_alg».proof.Proof.RowOps

noncomputable section

open scoped BigOperators

namespace Cert.ReferenceIdeal.Rows

open Cert.ReferenceIdeal Cert.ReferenceIdeal.Gen Cert.ReferenceIdeal.Read Idealize.ShloMosaic Idealize.ShloMosaic.ValueIdx

/-- A [32, 128, 4096] index with its last coordinate forgotten, twice over, is (b, p). -/
theorem keep2 (b : Fin 32) (p : Fin 128) (k : Fin 4096) : idx_main_v1 (idx_main_v2 (ix3 b p k)) = ix2 b p :=
  funext fun a => Fin.ext (by match a with | ⟨0, _⟩ => rfl | ⟨1, _⟩ => rfl)

/-- (b, p) with k put back is (b, p, k). -/
theorem put_back (b : Fin 32) (p : Fin 128) (k : Fin 4096) : idx_main_v5 (ix2 b p) k = ix3 b p k :=
  funext fun a => Fin.ext (by match a with | ⟨0, _⟩ => rfl | ⟨1, _⟩ => rfl | ⟨2, _⟩ => rfl)

/-- The host's zero is the extended real 0. -/
theorem zero_eq : val_main_cst_0 (F := Ideal) (Shape.Idx.first h_S_) = 0 := Ideal.ofBits_zero_f32

/-- The maximum spread back, at (b, p, k): the largest entry of row (b, p). -/
theorem max_apply (X : FVec Ideal S32x128x4096 .f32) (b : Fin 32) (p : Fin 128) (k : Fin 4096) :
    val_main_v2 (F := Ideal) X (ix3 b p k) = RowNorm.top (RowNorm.row X b p) := by
  rw [val_main_v2_apply, val_main_v1_apply, keep2]
  exact RowOps.host_max X _ _ b p

/-- The weights, at (b, p, k). -/
theorem weights_apply (X : FVec Ideal S32x128x4096 .f32) (b : Fin 32) (p : Fin 128) (k : Fin 4096) :
    val_main_v4 (F := Ideal) X (ix3 b p k) = RowNorm.weights (RowNorm.row X b p) k := by
  rw [val_main_v4_apply, val_main_v3_apply, max_apply]
  rfl

/-- Row (b, p) of the array of weights is the weights of row (b, p). -/
theorem weights_row (X : FVec Ideal S32x128x4096 .f32) (b : Fin 32) (p : Fin 128) :
    RowNorm.row (val_main_v4 (F := Ideal) X) b p = RowNorm.weights (RowNorm.row X b p) :=
  funext fun k => weights_apply X b p k

/-- The sum of the weights spread back, at (b, p, q). -/
theorem sum_apply (X : FVec Ideal S32x128x4096 .f32) (b : Fin 32) (p : Fin 128) (q : Fin 4096) :
    val_main_v7 (F := Ideal) X (ix3 b p q) = ∑ k : Fin 4096, RowNorm.weights (RowNorm.row X b p) k := by
  rw [val_main_v7_apply, val_main_v6_apply]
  rw [show idx_main_v6 (idx_main_v7 (ix3 b p q)) = ix2 b p from keep2 b p q]
  rw [val_main_v5_apply, zero_eq, zero_add]
  refine Finset.sum_congr rfl fun k _ => ?_
  rw [put_back, weights_apply]

/-- The first quotient, at (b, p, q): the first normalization of row (b, p), at q. -/
theorem first_apply (X : FVec Ideal S32x128x4096 .f32) (b : Fin 32) (p : Fin 128) (q : Fin 4096) :
    val_main_v8 (F := Ideal) X (ix3 b p q) = RowNorm.first (RowNorm.row X b p) q := by
  rw [val_main_v8_apply, weights_apply, sum_apply]
  rfl

/-- The minimum of the weights spread back, at (b, p, k): the smallest weight of row (b, p). -/
theorem min_apply (X : FVec Ideal S32x128x4096 .f32) (b : Fin 32) (p : Fin 128) (k : Fin 4096) :
    val_main_v11 (F := Ideal) X (ix3 b p k) = RowNorm.bottom (RowNorm.weights (RowNorm.row X b p)) := by
  rw [val_main_v11_apply, val_main_v10_apply]
  rw [show idx_main_v10 (idx_main_v11 (ix3 b p k)) = ix2 b p from keep2 b p k]
  rw [← weights_row]
  exact RowOps.host_min (val_main_v4 (F := Ideal) X) _ _ b p

/-- The second weights, at (b, p, k). -/
theorem weights₂_apply (X : FVec Ideal S32x128x4096 .f32) (b : Fin 32) (p : Fin 128) (k : Fin 4096) :
    val_main_v13 (F := Ideal) X (ix3 b p k) = RowNorm.weights₂ (RowNorm.row X b p) k := by
  rw [val_main_v13_apply, val_main_v12_apply, min_apply, weights_apply]
  rfl

/-- The sum of the second weights spread back, at (b, p, q). -/
theorem sum₂_apply (X : FVec Ideal S32x128x4096 .f32) (b : Fin 32) (p : Fin 128) (q : Fin 4096) :
    val_main_v16 (F := Ideal) X (ix3 b p q) = ∑ k : Fin 4096, RowNorm.weights₂ (RowNorm.row X b p) k := by
  rw [val_main_v16_apply, val_main_v15_apply]
  rw [show idx_main_v15 (idx_main_v16 (ix3 b p q)) = ix2 b p from keep2 b p q]
  rw [val_main_v14_apply]
  rw [show val_main_cst_2 (F := Ideal) (Shape.Idx.first h_S_) = 0 from Ideal.ofBits_zero_f32, zero_add]
  refine Finset.sum_congr rfl fun k _ => ?_
  rw [show idx_main_v14 (ix2 b p) k = ix3 b p k from put_back b p k, weights₂_apply]

/-- The second quotient, at (b, p, q): the second normalization of row (b, p), at q. -/
theorem second_apply (X : FVec Ideal S32x128x4096 .f32) (b : Fin 32) (p : Fin 128) (q : Fin 4096) :
    val_main_v17 (F := Ideal) X (ix3 b p q) = RowNorm.second (RowNorm.row X b p) q := by
  rw [val_main_v17_apply, weights₂_apply, sum₂_apply]
  rfl

/-- The reference's first quotient is the array of first normalizations. -/
theorem first_eq (X : FVec Ideal S32x128x4096 .f32) : val_main_v8 (F := Ideal) X = RowNorm.firstArr X := by
  funext i
  obtain ⟨b, p, q, rfl⟩ : ∃ (b : Fin 32) (p : Fin 128) (q : Fin 4096), i = ix3 b p q := ⟨i 0, i 1, i 2, eq_ix3 i⟩
  rw [first_apply, RowNorm.firstArr_ix3]

/-- The reference's second quotient is the array of second normalizations. -/
theorem second_eq (X : FVec Ideal S32x128x4096 .f32) : val_main_v17 (F := Ideal) X = RowNorm.secondArr X := by
  funext i
  obtain ⟨b, p, q, rfl⟩ : ∃ (b : Fin 32) (p : Fin 128) (q : Fin 4096), i = ix3 b p q := ⟨i 0, i 1, i 2, eq_ix3 i⟩
  rw [second_apply, RowNorm.secondArr_ix3]

end Cert.ReferenceIdeal.Rows

end
-- ==== Proof.ReferenceRun.lean ====
/-
  The reference program's run, read: its result is the interleave of the two normalized arrays of the argument.

  The reference's last four lines give each of its two quotients a unit axis, join them along it and recast the result to
  [32, 256, 4096]: the interleave of the two quotients, which are the arrays of first and of second normalizations of the
  argument's rows.
-/
import proofs.«130782_j62543313764812_1_alg».proof.Proof.ReferenceRow
import proofs.«130782_j62543313764812_1_alg».proof.Proof.Interleave

noncomputable section

namespace Cert.ReferenceIdeal.Result

open Cert.ReferenceIdeal Cert.ReferenceIdeal.Gen Cert.ReferenceIdeal.Read Idealize.ShloMosaic Idealize.ShloMosaic.TcCoe
open Idealize.SL.Sem

/-- The reference's result, as a function of its argument, is the interleave of the two normalized arrays. -/
theorem result_eq (X : FVec Ideal S32x128x4096 .f32) :
    val_main_v21 (F := Ideal) X = RowNorm.interleave (RowNorm.firstArr X) (RowNorm.secondArr X) := by
  rw [← Rows.first_eq X, ← Rows.second_eq X]
  rfl

/-- Every weakly fair execution of the reference terminates with the result at the interleave of the two normalized
    arrays of the argument, the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21)
        = RowNorm.interleave (RowNorm.firstArr (m ((c.tc : Thread nD τ).loc main_arg0)))
            (RowNorm.secondArr (m ((c.tc : Thread nD τ).loc main_arg0)))
      ∧ r.2.mem ((c.tc : Thread nD τ).loc main_arg0) = m ((c.tc : Thread nD τ).loc main_arg0) :=
  (θ_run defs _ _).mono (fun _ h c =>
      ⟨(h c).1.trans ((val_main_v21_eq (F := Ideal) (m ((c.tc : Thread nD τ).loc main_arg0))).trans (result_eq _)), (h c).2⟩)
    (Cert.ReferenceIdeal.Value.run (F := Ideal) m ρ)

end Cert.ReferenceIdeal.Result

end
-- ==== Proof.lean ====
/-
  The kernel and its reference compute, for every row of the [32, 128, 4096] argument, the same two normalizations,
  and interleave them the same way.

  For a row r with largest entry M: the weights exp (r − M) over their sum (the first normalization), and, with μ the
  smallest weight, the second weights exp (μ − weight) over their sum (the second normalization). The kernel does this one
  [128, 4096] block per grid point, the reference on the whole array; on the extended reals a row reduction does not
  depend on the order of its entries, the kernel's and the host's exponential and quotient are one function each, and a
  block of the array of normalizations is the normalizations of the block's rows, so the two output arrays are the same
  two functions of the argument, and the interleave both programs end with is applied to equal arrays. No finiteness of
  the input is used. The ideal pass rewrote nothing, so the kernel's idealization is its own text read at the extended
  reals. The frames of the kernel, at both instances, are the generated ones; the reference's frame is its run with the
  result dropped.
-/
import proofs.«130782_j62543313764812_1_alg».proof.Defs
import proofs.«130782_j62543313764812_1_alg».proof.Proof.Gen.Kernel
import proofs.«130782_j62543313764812_1_alg».proof.Proof.Gen.Kernel.Skeleton
import proofs.«130782_j62543313764812_1_alg».proof.Proof.Gen.Kernel.Launch
import proofs.«130782_j62543313764812_1_alg».proof.Proof.Gen.Kernel.Points
import proofs.«130782_j62543313764812_1_alg».proof.Proof.Gen.Kernel.Frame
import proofs.«130782_j62543313764812_1_alg».proof.Proof.Gen.KernelIdeal
import proofs.«130782_j62543313764812_1_alg».proof.Proof.Gen.KernelIdeal.Skeleton
import proofs.«130782_j62543313764812_1_alg».proof.Proof.Gen.KernelIdeal.Launch
import proofs.«130782_j62543313764812_1_alg».proof.Proof.Gen.KernelIdeal.Points
import proofs.«130782_j62543313764812_1_alg».proof.Proof.Gen.KernelIdeal.Frame
import proofs.«130782_j62543313764812_1_alg».proof.Proof.Gen.ReferenceIdeal
import proofs.«130782_j62543313764812_1_alg».proof.Proof.Gen.ReferenceIdeal.Run
import proofs.«130782_j62543313764812_1_alg».proof.Proof.Gen.ReferenceIdeal.Read
import proofs.«130782_j62543313764812_1_alg».proof.Proof.Gen.Pre_finite_inputs
import proofs.«130782_j62543313764812_1_alg».proof.Proof.KernelRun
import proofs.«130782_j62543313764812_1_alg».proof.Proof.ReferenceRun
import Idealize.ShloMosaic.Adequacy
import Idealize.ShloMosaic.Init

noncomputable section

namespace Cert.Proof

open Idealize.ShloMosaic Idealize.ShloMosaic.TcCoe Idealize.SL.Sem

/-- The word-level kernel runs and leaves its argument as it was. -/
theorem frame_kernel : Cert.frame_Kernel := fun m ρ _ => Cert.Kernel.Gen.frame m ρ

/-- The kernel read on the extended reals runs and leaves its argument as it was. -/
theorem frame_kernelIdeal : Cert.frame_KernelIdeal := fun m ρ _ => Cert.KernelIdeal.Gen.frame m ρ

/-- The reference runs and leaves its argument as it was: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- From memories that agree on the argument both programs end with the interleave of the argument's two normalized
    arrays. -/
theorem algebraic : Cert.algebraic_KernelIdeal_ReferenceIdeal := by
  intro m ρ m' ρ' _ hagree
  refine ⟨fun c => RowNorm.interleave
      (RowNorm.firstArr (m ((c.tc : Thread Cert.KernelIdeal.nD Cert.KernelIdeal.τ).loc Cert.KernelIdeal.main_arg0)))
      (RowNorm.secondArr (m ((c.tc : Thread Cert.KernelIdeal.nD Cert.KernelIdeal.τ).loc Cert.KernelIdeal.main_arg0))),
    Cert.KernelIdeal.Result.run m ρ, ?_⟩
  refine (θ_run Cert.ReferenceIdeal.defs _ _).mono (fun _ h c => ⟨(h c).1.trans ?_, (h c).2⟩)
    (Cert.ReferenceIdeal.Result.run m' ρ')
  rw [hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
